-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4x4096x3 : Shape := ⟨4, ![2, 4, 4096, 3]⟩
abbrev S2x4x4096x64 : Shape := ⟨4, ![2, 4, 4096, 64]⟩
abbrev S_ : Shape := ⟨0, ![]⟩

class Facts : Prop where
  bcast_S_S2x4x4096x3 : S_.BroadcastsInDim S2x4x4096x3 (![] : Fin 0 → Fin S2x4x4096x3.rank)
  reducesTo_S2x4x4096x3_S_d0_1_2_3 : S2x4x4096x3.ReducesTo [0, 1, 2, 3] S_
  h_S_ : 0 < S_.numel
  bcast_S_S2x4x4096x64 : S_.BroadcastsInDim S2x4x4096x64 (![] : Fin 0 → Fin S2x4x4096x64.rank)
  reducesTo_S2x4x4096x64_S_d0_1_2_3 : S2x4x4096x64.ReducesTo [0, 1, 2, 3] S_

variable [Facts]

def fn {F : FTy → Type} [FloatOps F] (main_arg0 : FVec F S2x4x4096x3 .f32) (main_arg1 : FVec F S2x4x4096x64 .f32) (main_arg2 : FVec F S2x4x4096x3 .f32) : IVec S_ 1 :=
  let main_v0 : FVec F S2x4x4096x3 .f32 := Host.absf main_arg0
  let main_cst : FVec F S_ .f32 := constant S_ .f32 0x7F800000#32
  let main_v1 : FVec F S2x4x4096x3 .f32 := broadcastInDim S2x4x4096x3 ![] bcast_S_S2x4x4096x3 main_cst
  let main_v2 : IVec S2x4x4096x3 1 := cmpf .olt main_v0 main_v1
  let main_c : IVec S_ 1 := constantI S_ 1 1#1
  let main_v3 : IVec S_ 1 := (fun x v => Host.reduce IntOp.andi x v reducesTo_S2x4x4096x3_S_d0_1_2_3 h_S_) main_v2 main_c
  let main_v4 : FVec F S2x4x4096x64 .f32 := Host.absf main_arg1
  let main_cst_0 : FVec F S_ .f32 := constant S_ .f32 0x7F800000#32
  let main_v5 : FVec F S2x4x4096x64 .f32 := broadcastInDim S2x4x4096x64 ![] bcast_S_S2x4x4096x64 main_cst_0
  let main_v6 : IVec S2x4x4096x64 1 := cmpf .olt main_v4 main_v5
  let main_c_1 : IVec S_ 1 := constantI S_ 1 1#1
  let main_v7 : IVec S_ 1 := (fun x v => Host.reduce IntOp.andi x v reducesTo_S2x4x4096x64_S_d0_1_2_3 h_S_) main_v6 main_c_1
  let main_v8 : IVec S_ 1 := andi main_v3 main_v7
  let main_v9 : FVec F S2x4x4096x3 .f32 := Host.absf main_arg2
  let main_cst_2 : FVec F S_ .f32 := constant S_ .f32 0x7F800000#32
  let main_v10 : FVec F S2x4x4096x3 .f32 := broadcastInDim S2x4x4096x3 ![] bcast_S_S2x4x4096x3 main_cst_2
  let main_v11 : IVec S2x4x4096x3 1 := cmpf .olt main_v9 main_v10
  let main_c_3 : IVec S_ 1 := constantI S_ 1 1#1
  let main_v12 : IVec S_ 1 := (fun x v => Host.reduce IntOp.andi x v reducesTo_S2x4x4096x3_S_d0_1_2_3 h_S_) main_v11 main_c_3
  let main_v13 : IVec S_ 1 := andi main_v8 main_v12
  main_v13
-- ==== Kernel.lean ====
abbrev S2x4x4096x3 : Shape := ⟨4, ![2, 4, 4096, 3]⟩
abbrev S2x4x4096x64 : Shape := ⟨4, ![2, 4, 4096, 64]⟩
abbrev S8x4096x3 : Shape := ⟨3, ![8, 4096, 3]⟩
abbrev S8x3x4096 : Shape := ⟨3, ![8, 3, 4096]⟩
abbrev S8x4096x64 : Shape := ⟨3, ![8, 4096, 64]⟩
abbrev S1x1024x3 : Shape := ⟨3, ![1, 1024, 3]⟩
abbrev S1x3x1024 : Shape := ⟨3, ![1, 3, 1024]⟩
abbrev S1x1024x64 : Shape := ⟨3, ![1, 1024, 64]⟩
abbrev S1024x64 : Shape := ⟨2, ![1024, 64]⟩
abbrev S1024x3 : Shape := ⟨2, ![1024, 3]⟩
abbrev S3x1024 : Shape := ⟨2, ![3, 1024]⟩
abbrev S1024x1024 : Shape := ⟨2, ![1024, 1024]⟩
abbrev S1024x1 : Shape := ⟨2, ![1024, 1]⟩
abbrev S1x1024 : Shape := ⟨2, ![1, 1024]⟩

abbrev nBuf : Space → Nat
  | .hbm => 9
  | .vmem => 9
  | .smem => 0
  | _ => 0

abbrev bufTy : (tb : Table) → Fin (tcTables nBuf tb) → BufTy
  | .hbm, ⟨0, _⟩ => ⟨S2x4x4096x3, .f32⟩
  | .hbm, ⟨1, _⟩ => ⟨S2x4x4096x64, .f32⟩
  | .hbm, ⟨2, _⟩ => ⟨S2x4x4096x3, .f32⟩
  | .hbm, ⟨3, _⟩ => ⟨S8x4096x3, .f32⟩
  | .hbm, ⟨4, _⟩ => ⟨S8x3x4096, .f32⟩
  | .hbm, ⟨5, _⟩ => ⟨S8x4096x64, .f32⟩
  | .hbm, ⟨6, _⟩ => ⟨S8x4096x3, .f32⟩
  | .hbm, ⟨7, _⟩ => ⟨S8x4096x64, .f32⟩
  | .hbm, ⟨8, _⟩ => ⟨S2x4x4096x64, .f32⟩
  | .local _ .vmem, ⟨0, _⟩ => ⟨S1x1024x3, .f32⟩
  | .local _ .vmem, ⟨1, _⟩ => ⟨S1x1024x3, .f32⟩
  | .local _ .vmem, ⟨2, _⟩ => ⟨S1x3x1024, .f32⟩
  | .local _ .vmem, ⟨3, _⟩ => ⟨S1x3x1024, .f32⟩
  | .local _ .vmem, ⟨4, _⟩ => ⟨S1x1024x64, .f32⟩
  | .local _ .vmem, ⟨5, _⟩ => ⟨S1x1024x64, .f32⟩
  | .local _ .vmem, ⟨6, _⟩ => ⟨S1x1024x64, .f32⟩
  | .local _ .vmem, ⟨7, _⟩ => ⟨S1x1024x64, .f32⟩
  | .local _ .vmem, ⟨8, _⟩ => ⟨S1024x64, .f32⟩
  | _, _ => ⟨S2x4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v42 : BitVec 1 := Scalar.cmpi .eq arg2 c3_i32
  let v43 : BitVec 32 := Scalar.extui v42
  let c0_i32_15 : BitVec 32 := 0#32
  let v44 : BitVec 1 := Scalar.cmpi .ne v43 c0_i32_15
  v44

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S2x4x4096x3_S8x4096x3 : S2x4x4096x3.ShapeCasts S8x4096x3
  transposes_S8x4096x3_S8x3x4096_0_2_1 : S8x4096x3.Transposes [0, 2, 1] S8x3x4096
  shapeCasts_S2x4x4096x64_S8x4096x64 : S2x4x4096x64.ShapeCasts S8x4096x64
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  inb_S1x3x1024_S1x3x1024_0_0_0 : ∀ a, (![0, 0, 0] : Fin 3 → Nat) a + S1x3x1024.size a ≤ S1x3x1024.size a
  h_S1x3x1024 : 0 < S1x3x1024.numel
  shapeCasts_S1x3x1024_S3x1024 : S1x3x1024.ShapeCasts S3x1024
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  slices_S1024x3_o0_0_S1024x1 : S1024x3.Slices ![0, 0] S1024x1
  slices_S3x1024_o0_0_S1x1024 : S3x1024.Slices ![0, 0] S1x1024
  broadcasts_S1024x1_S1024x1024 : S1024x1.Broadcasts S1024x1024
  broadcasts_S1x1024_S1024x1024 : S1x1024.Broadcasts S1024x1024
  slices_S1024x3_o0_1_S1024x1 : S1024x3.Slices ![0, 1] S1024x1
  slices_S3x1024_o1_0_S1x1024 : S3x1024.Slices ![1, 0] S1x1024
  slices_S1024x3_o0_2_S1024x1 : S1024x3.Slices ![0, 2] S1024x1
  slices_S3x1024_o2_0_S1x1024 : S3x1024.Slices ![2, 0] S1x1024
  bitsLt_bf16_f32 : FTy.bits .bf16 < FTy.bits .f32
  shapeCasts_S1024x64_S1x1024x64 : S1024x64.ShapeCasts S1x1024x64
  shapeCasts_S8x4096x64_S2x4x4096x64 : S8x4096x64.ShapeCasts S2x4x4096x64
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S8x4096x3.size a
  hwx0_0 : ∀ i : grid0.Coords, EltTy.bits .f32 = 32 ∨ (Rect.block (s := S8x4096x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x1024.size a ≤ S8x3x4096.size a
  hwx0_1 : ∀ i : grid0.Coords, EltTy.bits .f32 = 32 ∨ (Rect.block (s := S8x3x4096) S1x3x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x64.size a ≤ S8x4096x64.size a
  hwx0_2 : ∀ i : grid0.Coords, EltTy.bits .f32 = 32 ∨ (Rect.block (s := S8x4096x64) S1x1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x64.size a ≤ S8x4096x64.size a
  hwx0_3 : ∀ i : grid0.Coords, EltTy.bits .f32 = 32 ∨ (Rect.block (s := S8x4096x64) S1x1024x64.size (cc0_transform_3 i) (hinb0_3 i)).WholeWords (EltTy.packing .f32)

variable [Facts₀]

def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_v3) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x3x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2x4x4096x3 : Shape := ⟨4, ![2, 4, 4096, 3]⟩
abbrev S2x4x4096x64 : Shape := ⟨4, ![2, 4, 4096, 64]⟩
abbrev S_ : Shape := ⟨0, ![]⟩
abbrev S2x4x4096 : Shape := ⟨3, ![2, 4, 4096]⟩
abbrev S2x4x4096x1 : Shape := ⟨4, ![2, 4, 4096, 1]⟩
abbrev S2x4x1x4096 : Shape := ⟨4, ![2, 4, 1, 4096]⟩
abbrev S2x4x4096x4096 : Shape := ⟨4, ![2, 4, 4096, 4096]⟩

abbrev nBuf : Space → Nat
  | .hbm => 25
  | .vmem => 0
  | .smem => 0
  | _ => 0

abbrev bufTy : (tb : Table) → Fin (tcTables nBuf tb) → BufTy
  | .hbm, ⟨0, _⟩ => ⟨S2x4x4096x3, .f32⟩
  | .hbm, ⟨1, _⟩ => ⟨S2x4x4096x64, .f32⟩
  | .hbm, ⟨2, _⟩ => ⟨S2x4x4096x3, .f32⟩
  | .hbm, ⟨3, _⟩ => ⟨S2x4x4096x3, .f32⟩
  | .hbm, ⟨4, _⟩ => ⟨S_, .f32⟩
  | .hbm, ⟨5, _⟩ => ⟨S2x4x4096, .f32⟩
  | .hbm, ⟨6, _⟩ => ⟨S2x4x4096x1, .f32⟩
  | .hbm, ⟨7, _⟩ => ⟨S2x4x4096x3, .f32⟩
  | .hbm, ⟨8, _⟩ => ⟨S_, .f32⟩
  | .hbm, ⟨9, _⟩ => ⟨S2x4x4096, .f32⟩
  | .hbm, ⟨10, _⟩ => ⟨S2x4x1x4096, .f32⟩
  | .hbm, ⟨11, _⟩ => ⟨S2x4x4096x4096, .f32⟩
  | .hbm, ⟨12, _⟩ => ⟨S2x4x4096x4096, .f32⟩
  | .hbm, ⟨13, _⟩ => ⟨S2x4x4096x4096, .f32⟩
  | .hbm, ⟨14, _⟩ => ⟨S2x4x4096x4096, .f32⟩
  | .hbm, ⟨15, _⟩ => ⟨S_, .f32⟩
  | .hbm, ⟨16, _⟩ => ⟨S2x4x4096x4096, .f32⟩
  | .hbm, ⟨17, _⟩ => ⟨S2x4x4096x4096, .f32⟩
  | .hbm, ⟨18, _⟩ => ⟨S2x4x4096x4096, .f32⟩
  | .hbm, ⟨19, _⟩ => ⟨S2x4x4096x4096, .f32⟩
  | .hbm, ⟨20, _⟩ => ⟨S_, .f32⟩
  | .hbm, ⟨21, _⟩ => ⟨S2x4x4096x4096, .f32⟩
  | .hbm, ⟨22, _⟩ => ⟨S2x4x4096x4096, .f32⟩
  | .hbm, ⟨23, _⟩ => ⟨S2x4x4096x4096, .f32⟩
  | .hbm, ⟨24, _⟩ => ⟨S2x4x4096x64, .f32⟩
  | _, _ => ⟨S2x4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  reducesTo_S2x4x4096x3_S2x4x4096_d3 : S2x4x4096x3.ReducesTo [3] S2x4x4096
  h_S_ : 0 < S_.numel
  bcast_S2x4x4096_S2x4x4096x1_0_1_2 : S2x4x4096.BroadcastsInDim S2x4x4096x1 (![0, 1, 2] : Fin 3 → Fin S2x4x4096x1.rank)
  bcast_S2x4x4096_S2x4x1x4096_0_1_3 : S2x4x4096.BroadcastsInDim S2x4x1x4096 (![0, 1, 3] : Fin 3 → Fin S2x4x1x4096.rank)
  bcast_S2x4x4096x1_S2x4x4096x4096_0_1_2_3 : S2x4x4096x1.BroadcastsInDim S2x4x4096x4096 (![0, 1, 2, 3] : Fin 4 → Fin S2x4x4096x4096.rank)
  bcast_S2x4x1x4096_S2x4x4096x4096_0_1_2_3 : S2x4x1x4096.BroadcastsInDim S2x4x4096x4096 (![0, 1, 2, 3] : Fin 4 → Fin S2x4x4096x4096.rank)
  bcast_S_S2x4x4096x4096 : S_.BroadcastsInDim S2x4x4096x4096 (![] : Fin 0 → Fin S2x4x4096x4096.rank)
  dot_S2x4x4096x3_S2x4x4096x3_S2x4x4096x4096_3_3_2_2_01_01_wf : DotDims.WF S2x4x4096x3 S2x4x4096x3 S2x4x4096x4096 [3] [3] [2] [2] [0, 1] [0, 1]
  dot_S2x4x4096x4096_S2x4x4096x64_S2x4x4096x64_3_2_2_3_01_01_wf : DotDims.WF S2x4x4096x4096 S2x4x4096x64 S2x4x4096x64 [3] [2] [2] [3] [0, 1] [0, 1]

variable [Facts₀]

def dot_S2x4x4096x3_S2x4x4096x3_S2x4x4096x4096_3_3_2_2_01_01 : DotDims S2x4x4096x3 S2x4x4096x3 S2x4x4096x4096 where
  lhsContracting := [3]
  rhsContracting := [3]
  lhsNonContracting := [2]
  rhsNonContracting := [2]
  lhsBatch := [0, 1]
  rhsBatch := [0, 1]
  wf := dot_S2x4x4096x3_S2x4x4096x3_S2x4x4096x4096_3_3_2_2_01_01_wf
def dot_S2x4x4096x4096_S2x4x4096x64_S2x4x4096x64_3_2_2_3_01_01 : DotDims S2x4x4096x4096 S2x4x4096x64 S2x4x4096x64 where
  lhsContracting := [3]
  rhsContracting := [2]
  lhsNonContracting := [2]
  rhsNonContracting := [3]
  lhsBatch := [0, 1]
  rhsBatch := [0, 1]
  wf := dot_S2x4x4096x4096_S2x4x4096x64_S2x4x4096x64_3_2_2_3_01_01_wf

class Facts : Prop extends Facts₀ where

variable [Facts]
-- ==== Proof.GaussSpec.lean ====
/-
  The Gaussian-kernel interpolation as one function of the three argument arrays.

  For batch (b, c), output point o and channel ch the result is
      ∑_k  w(y_o, x_k) · weights[b, c, k, ch],     k over the 4096 input points,
  with y_o = output_positions[b, c, o, :], x_k = input_positions[b, c, k, :] ∈ ℝ³ and the Gaussian weight
      w(y, x) = exp(−‖y − x‖² / 2).
  The two programs spell the exponent differently:
    • directly, as −½ · (((0 + (y₀−x₀)²) + (y₁−x₁)²) + (y₂−x₂)²)                                (`gramDirect`);
    • expanded, as −((0 + ∑ y_d²) + (0 + ∑ x_d²) − 2 · ∑ y_d x_d) / 2                          (`gramExpanded`).
  On real numbers these are equal: (y−x)² = y² + x² − 2yx, summed over the three coordinates (`gram_eq`).  On the
  extended reals the expansion can fail (∞ − ∞), which is why the law is stated for real coordinates only.
  Also here: the interpolation over the rank-4 arrays and over their [8, …] reshapes, the split of a sum over 4096
  into four tiles of 1024, and the values of the few float literals the programs use.
-/
import Idealize.ShloMosaic.PureOps.Ideal
import Idealize.ShloMosaic.PureOps.Ideal.Laws
import Idealize.ShloMosaic.Lib.ValueIdx
import Idealize.ShloMosaic.Lib.ValueLayout

noncomputable section

namespace Cert.GaussSpec

open Idealize.ShloMosaic Idealize.ShloMosaic.ValueIdx

/-! ## The float literals -/

/-- The word of `2.0`. -/
abbrev twoW : EReal := Ideal.ofBits .f32 0x40000000#32
/-- The word of `-0.5`. -/
abbrev mhalfW : EReal := Ideal.ofBits .f32 0xBF000000#32
/-- The word of `+0.0`. -/
abbrev zeroW : EReal := Ideal.ofBits .f32 0x00000000#32
/-- The word of `+inf`. -/
abbrev infW : EReal := Ideal.ofBits .f32 0x7F800000#32

theorem zeroW_eq : zeroW = 0 := by simp [Ideal.ofBits, Ideal.ieee]
theorem twoW_eq : twoW = ((2 : ℝ) : EReal) := by
  simp [Ideal.ofBits, Ideal.ieee, -EReal.coe_mul]; norm_num
theorem mhalfW_eq : mhalfW = ((-(1 / 2) : ℝ) : EReal) := by
  simp [Ideal.ofBits, Ideal.ieee, -EReal.coe_mul]; norm_num
theorem infW_eq : infW = ⊤ := by simp [Ideal.ofBits, Ideal.ieee]

/-! ## The Gaussian weight, two ways -/

/-- The weight with the squared distance accumulated coordinate by coordinate. -/
def gramDirect (y x : Fin 3 → EReal) : EReal :=
  Ideal.exp (mhalfW * (((zeroW + (y 0 - x 0) * (y 0 - x 0)) + (y 1 - x 1) * (y 1 - x 1)) + (y 2 - x 2) * (y 2 - x 2)))

/-- The weight with the squared distance expanded into squared norms and a cross term. -/
def gramExpanded (y x : Fin 3 → EReal) : EReal :=
  Ideal.exp (Ideal.div (-(((zeroW + ∑ d : Fin 3, y d * y d) + (zeroW + ∑ d : Fin 3, x d * x d)) - twoW * ∑ d : Fin 3, y d * x d)) twoW)

/-- On real coordinates the two spellings agree. -/
theorem gram_eq (y x : Fin 3 → ℝ) :
    gramDirect (fun d => (y d : EReal)) (fun d => (x d : EReal)) = gramExpanded (fun d => (y d : EReal)) (fun d => (x d : EReal)) := by
  unfold gramDirect gramExpanded
  rw [zeroW_eq, twoW_eq, mhalfW_eq, Ideal.div_coe (by norm_num : (2 : ℝ) ≠ 0), Fin.sum_univ_three, Fin.sum_univ_three,
    Fin.sum_univ_three]
  simp only [zero_add, ← EReal.coe_mul, ← EReal.coe_add, ← EReal.coe_sub, ← EReal.coe_neg, Ideal.exp_coe]
  congr 2
  ring

/-- An extended real whose absolute value is below `⊤` is a real number. -/
theorem exists_real_of_abs_lt_top (x : EReal) (h : max x (-x) < ⊤) : ∃ r : ℝ, x = (r : EReal) := by
  induction x using EReal.rec with
  | bot => simp at h
  | coe r => exact ⟨r, rfl⟩
  | top => simp at h

/-! ## The interpolation -/

abbrev SPos : Shape := ⟨4, ![2, 4, 4096, 3]⟩
abbrev SWgt : Shape := ⟨4, ![2, 4, 4096, 64]⟩
abbrev SPos3 : Shape := ⟨3, ![8, 4096, 3]⟩
abbrev SPosT : Shape := ⟨3, ![8, 3, 4096]⟩
abbrev SWgt3 : Shape := ⟨3, ![8, 4096, 64]⟩

/-- The interpolation over the arrays as given: input positions `x0`, weights `x1`, output positions `x2`. -/
def interp (gram : (Fin 3 → EReal) → (Fin 3 → EReal) → EReal) (x0 : SPos.Idx → EReal) (x1 : SWgt.Idx → EReal)
    (x2 : SPos.Idx → EReal) : SWgt.Idx → EReal :=
  fun i => ∑ k : Fin 4096, gram (fun d => x2 (ix4 (i 0) (i 1) (i 2) d)) (fun d => x0 (ix4 (i 0) (i 1) k d)) * x1 (ix4 (i 0) (i 1) k (i 3))

/-- The same over the arrays with the two batch axes merged: output positions `Y` [8, 4096, 3], input positions
    transposed `Xt` [8, 3, 4096], weights `W` [8, 4096, 64]. -/
def interp3 (gram : (Fin 3 → EReal) → (Fin 3 → EReal) → EReal) (Y : SPos3.Idx → EReal) (Xt : SPosT.Idx → EReal)
    (W : SWgt3.Idx → EReal) : SWgt3.Idx → EReal :=
  fun j => ∑ k : Fin 4096, gram (fun d => Y (ix3 (j 0) (j 1) d)) (fun d => Xt (ix3 (j 0) d k)) * W (ix3 (j 0) k (j 2))

/-- With real positions the two spellings of the weight give one interpolation. -/
theorem interp_eq_of_real (x0 : SPos.Idx → EReal) (x1 : SWgt.Idx → EReal) (x2 : SPos.Idx → EReal)
    (h0 : ∀ i, ∃ r : ℝ, x0 i = (r : EReal)) (h2 : ∀ i, ∃ r : ℝ, x2 i = (r : EReal)) :
    interp gramDirect x0 x1 x2 = interp gramExpanded x0 x1 x2 := by
  choose r0 hr0 using h0
  choose r2 hr2 using h2
  funext i
  unfold interp
  refine Finset.sum_congr rfl fun k _ => ?_
  simp only [hr0, hr2]
  rw [gram_eq]

/-! ## The two batch axes merged and split -/

/-- The merged batch index 4·b + c. -/
abbrev join (b : Fin 2) (c : Fin 4) : Fin 8 := ⟨b.val * 4 + c.val, by omega⟩
abbrev hi (bc : Fin 8) : Fin 2 := ⟨bc.val / 4, by omega⟩
abbrev lo (bc : Fin 8) : Fin 4 := ⟨bc.val % 4, by omega⟩

theorem hi_join (b : Fin 2) (c : Fin 4) : hi (join b c) = b := Fin.ext (by show (b.val * 4 + c.val) / 4 = b.val; omega)
theorem lo_join (b : Fin 2) (c : Fin 4) : lo (join b c) = c := Fin.ext (by show (b.val * 4 + c.val) % 4 = c.val; omega)

variable {α : Type}

/-- A [2, 4, 4096, n] array with its batch axes merged reads, at (bc, o, e), the array at (bc / 4, bc % 4, o, e). -/
theorem merge_apply {n : Nat} (x : (⟨4, ![2, 4, 4096, n]⟩ : Shape).Idx → α)
    (h : (⟨4, ![2, 4, 4096, n]⟩ : Shape).ShapeCasts ⟨3, ![8, 4096, n]⟩) (bc : Fin 8) (o : Fin 4096) (e : Fin n) :
    shapeCast ⟨3, ![8, 4096, n]⟩ x h (ix3 bc o e) = x (ix4 (hi bc) (lo bc) o e) :=
  shapeCast_apply x h _ _ (by
    rw [Shape.rowMajor_val_four, Shape.rowMajor_val_three]
    show ((bc.val / 4 * 4 + bc.val % 4) * 4096 + o.val) * n + e.val = (bc.val * 4096 + o.val) * n + e.val
    rw [Nat.div_add_mod' bc.val 4])

/-- An [8, 4096, n] array with its batch axis split reads, at (b, c, o, e), the array at (4·b + c, o, e). -/
theorem split_apply {n : Nat} (v : (⟨3, ![8, 4096, n]⟩ : Shape).Idx → α)
    (h : (⟨3, ![8, 4096, n]⟩ : Shape).ShapeCasts ⟨4, ![2, 4, 4096, n]⟩) (b : Fin 2) (c : Fin 4) (o : Fin 4096) (e : Fin n) :
    shapeCast ⟨4, ![2, 4, 4096, n]⟩ v h (ix4 b c o e) = v (ix3 (join b c) o e) :=
  shapeCast_apply v h _ _ (by
    rw [Shape.rowMajor_val_four, Shape.rowMajor_val_three]
    rfl)

/-- The transposed merged input positions read, at (bc, d, k), input point k's coordinate d in batch (bc / 4, bc % 4). -/
theorem posT_apply (x0 : SPos.Idx → α) (h0 : SPos.ShapeCasts SPos3) (hT : SPos3.Transposes [0, 2, 1] SPosT)
    (bc : Fin 8) (d : Fin 3) (k : Fin 4096) :
    transpose SPosT [0, 2, 1] (shapeCast SPos3 x0 h0) hT (ix3 bc d k) = x0 (ix4 (hi bc) (lo bc) k d) :=
  (transpose_ix3_021_apply (shapeCast SPos3 x0 h0) hT bc d k).trans (merge_apply x0 h0 bc k d)

/-- The interpolation over the merged arrays, split back, is the interpolation over the arrays as given. -/
theorem interp3_merge (gram : (Fin 3 → EReal) → (Fin 3 → EReal) → EReal) (x0 : SPos.Idx → EReal) (x1 : SWgt.Idx → EReal)
    (x2 : SPos.Idx → EReal) (h0 : SPos.ShapeCasts SPos3) (hT : SPos3.Transposes [0, 2, 1] SPosT)
    (h1 : SWgt.ShapeCasts SWgt3) (hb : SWgt3.ShapeCasts SWgt) :
    shapeCast SWgt (interp3 gram (shapeCast SPos3 x2 h0) (transpose SPosT [0, 2, 1] (shapeCast SPos3 x0 h0) hT)
      (shapeCast SWgt3 x1 h1)) hb = interp gram x0 x1 x2 := by
  funext i
  obtain ⟨b, c, o, ch, rfl⟩ : ∃ (b : Fin 2) (c : Fin 4) (o : Fin 4096) (ch : Fin 64), i = ix4 b c o ch :=
    ⟨i 0, i 1, i 2, i 3, eq_ix4 i⟩
  rw [split_apply]
  show (∑ k : Fin 4096, gram (fun d => shapeCast SPos3 x2 h0 (ix3 (join b c) o d))
      (fun d => transpose SPosT [0, 2, 1] (shapeCast SPos3 x0 h0) hT (ix3 (join b c) d k)) * shapeCast SWgt3 x1 h1 (ix3 (join b c) k ch))
    = ∑ k : Fin 4096, gram (fun d => x2 (ix4 b c o d)) (fun d => x0 (ix4 b c k d)) * x1 (ix4 b c k ch)
  simp only [merge_apply, hi_join, lo_join]
  refine Finset.sum_congr rfl fun k _ => ?_
  have e : (fun d => transpose SPosT [0, 2, 1] (shapeCast SPos3 x0 h0) hT (ix3 (join b c) d k)) = fun d => x0 (ix4 b c k d) :=
    funext fun d => (posT_apply x0 h0 hT (join b c) d k).trans (by rw [hi_join, lo_join])
  rw [e]

/-! ## A sum over 4096 as four tiles of 1024 -/

/-- Entry `k` of tile `s`. -/
abbrev tile (s : Fin 4) (k : Fin 1024) : Fin 4096 := ⟨1024 * s.val + k.val, by omega⟩

theorem sum_four_tiles {M : Type} [AddCommMonoid M] (f : Fin 4096 → M) :
    ∑ k : Fin 4096, f k = ∑ s : Fin 4, ∑ k : Fin 1024, f (tile s k) := by
  rw [← Fintype.sum_prod_type' (f := fun (s : Fin 4) (k : Fin 1024) => f (tile s k))]
  refine (Fintype.sum_equiv (finProdFinEquiv : Fin 4 × Fin 1024 ≃ Fin 4096) _ _ fun p => ?_).symm
  refine congrArg f (Fin.ext ?_)
  show 1024 * p.1.val + p.2.val = p.2.val + 1024 * p.1.val
  omega

end Cert.GaussSpec

end
-- ==== Proof.LibRowOps.lean ====
/-
  Two-dimensional vector operations read at one index, on the extended reals.

  A kernel body that projects, normalises and contracts rows is a composition of a few operations on
  [a, b] vectors.  Each lemma below reads one of them at the index (r, c), with both coordinates explicit:
  a matrix product into a zero accumulator is the sum over the shared axis; a sum or a maximum along the
  second axis is the sum or the fold of `max` over that row; a length-a vector viewed as an [a, 1] column, the
  column repeated along a second axis, and a transpose only move coordinates.
-/
import Idealize.ShloMosaic.PureOps.Ideal.Laws
import Idealize.ShloMosaic.Lib.ValueIdx
import Idealize.ShloMosaic.Lib.Pipeline.Value

noncomputable section

namespace Cert.RowOps

open Idealize.ShloMosaic Idealize.ShloMosaic.ValueIdx

/-! ## A plain matrix product -/

/-- The dimension numbers of a plain `[M, K] × [K, N]` product: contract the left operand's second axis with the
    right operand's first, no batch axis. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Plain

variable {M K N : Nat} {d : DotDims ⟨2, ![M, K]⟩ ⟨2, ![K, N]⟩ ⟨2, ![M, N]⟩}

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq h => by subst h; rfl

theorem contr_rank (hd : IsPlain d) : d.contr.rank = 1 := by
  rw [d.rank_contr, hd.lc]; rfl

theorem contr_size (hd : IsPlain d) : d.contr.size ⟨0, by rw [contr_rank hd]; exact Nat.one_pos⟩ = K := by
  rw [d.size_contr 0 (by rw [hd.lc]; exact Nat.one_pos)]
  simp only [hd.lc, List.getElem_cons_zero]
  rfl

/-- The left operand's row coordinate is the result's row coordinate. -/
theorem lhsIdx_row (hd : IsPlain d) (j : (⟨2, ![M, N]⟩ : Shape).Idx) (k : d.contr.Idx) :
    (d.lhsIdx j k 0).val = (j 0).val := by
  unfold DotDims.lhsIdx
  rw [dif_neg (by rw [hd.lb]; exact List.not_mem_nil), dif_pos (by rw [hd.ln]; exact List.mem_singleton.mpr rfl)]
  simp only [Fin.val_cast]
  exact val_congr j _ _ _ _ (by simp [hd.lb, hd.ln])

/-- The right operand's column coordinate is the result's column coordinate. -/
theorem rhsIdx_col (hd : IsPlain d) (j : (⟨2, ![M, N]⟩ : Shape).Idx) (k : d.contr.Idx) :
    (d.rhsIdx j k 1).val = (j 1).val := by
  unfold DotDims.rhsIdx
  rw [dif_neg (by rw [hd.rb]; exact List.not_mem_nil), dif_pos (by rw [hd.rn]; exact List.mem_singleton.mpr rfl)]
  simp only [Fin.val_cast]
  exact val_congr j _ _ _ _ (by simp [hd.lb, hd.ln, hd.rn])

/-- A plain matrix product into a zero accumulator, at (r, c): the sum over the shared axis of the products. -/
theorem matmul_zero_apply (hd : IsPlain d) {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul d prec lhs rhs (constant ⟨2, ![M, N]⟩ .f32 0x00000000#32) (ix2 r c)
      = ∑ k : Fin K, lhs (ix2 r k) * rhs (ix2 k c) := by
  rw [Ideal.matmul_constant_zero_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Plain

/-! ## Reductions along the second axis -/

section Rows

variable {a b : Nat} {φ : FTy}

/-- The index over row `r` with second coordinate `k`. -/
theorem lift_row (h : (⟨2, ![a, b]⟩ : Shape).Reduces [1] ⟨1, ![a]⟩) (r : Fin a) (k : Fin b) :
    h.lift (ix1 r) k = ix2 r k :=
  funext fun c => Fin.ext (by
    show h.liftVal (ix1 r) k.val c = (ix2 r k c).val
    unfold Shape.Reduces.liftVal
    match c with
    | ⟨0, _⟩ => rfl
    | ⟨1, _⟩ => rfl)

/-- A sum along the second axis, at row `r`: the sum of that row. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- A maximum along the second axis, at row `r`: the fold of `max` over that row from the starting word's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (Finset.fold max _ · _) (funext fun k => congrArg src (lift_row h r k))

end Rows

/-! ## Moving coordinates -/

section Layout

variable {α : Type} {a b : Nat}

/-- A length-`a` vector viewed as an `[a, 1]` column reads, at (i, u), the vector at i. -/
theorem column_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column repeated along a second axis reads, at (i, j), the column at (i, 0). -/
theorem spread_apply (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (0 : Fin 1)) :=
  broadcastTo_apply x h _ _ (fun c => by
    match c with
    | ⟨0, _⟩ =>
      show i.val = if a = 1 then 0 else i.val
      split
      · next h1 => have := i.isLt; omega
      · rfl
    | ⟨1, _⟩ => show 0 = if (1 : Nat) = 1 then 0 else j.val; rw [if_pos rfl])

/-- A transposed `[a, b]` vector reads, at (p, q), the vector at (q, p). -/
theorem swap_apply (x : (⟨2, ![a, b]⟩ : Shape).Idx → α) (h : (⟨2, ![a, b]⟩ : Shape).Transposes [1, 0] ⟨2, ![b, a]⟩)
    (p : Fin b) (q : Fin a) : transpose ⟨2, ![b, a]⟩ [1, 0] x h (ix2 p q) = x (ix2 q p) :=
  transpose_apply [1, 0] x h _ _ (fun c => by
    match c with
    | ⟨0, _⟩ => rfl
    | ⟨1, _⟩ => rfl)

end Layout

end Cert.RowOps

end
-- ==== Proof.TilePieces.lean ====
/-
  What one grid point leaves behind, read back as values.

  The body keeps a running [1024, 64] sum in a scratch buffer that lives across the innermost grid axis (the
  input tiles).  At the first input tile it stores the zero block and then adds the tile's product to it; at the
  second and third tiles it adds the tile's product to what the tile before left; at the fourth it does the same
  and then copies the sum to the output block.  In every case the scratch ends at ONE function of the three input
  blocks and of what it held before: `step`, the body's arithmetic (the generated payload) applied to the blocks.
  The lemmas are stated for any float instance.
-/
import proofs.«163945_j72971494359165_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- The all-zero offsets of a whole-buffer access, rank 2 and rank 3. -/
theorem hz2 : (![0, 0] : Fin 2 → Nat) = fun _ => 0 := funext fun a => by fin_cases a <;> rfl
theorem hz3 : (![0, 0, 0] : Fin 3 → Nat) = fun _ => 0 := funext fun a => by fin_cases a <;> rfl

/-- One tile's step: the carried sum `acc` plus the tile's product, as the body computes it. -/
abbrev step (x0 : Vec F S1x1024x3 .f32) (x1 : Vec F S1x3x1024 .f32) (x2 : Vec F S1x1024x64 .f32)
    (acc : Vec F S1024x64 .f32) : Vec F S1024x64 .f32 := k0_pay1 (k0_pay4 x0 x1 x2 acc)

/-- First input tile: the zero block is stored, read back, and the tile's product added to it. -/
theorem scratch_A (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S1024x64 .f32) (harg7 : arg7.IsWhole) (hc0 : cond0_0 i) (hc1 : ¬cond0_1 i)
    (x0 : Vec F S1x1024x3 .f32) (x1 : Vec F S1x3x1024 .f32) (x2 : Vec F S1x1024x64 .f32) :
    sout0_A_0 c i arg3 harg3 arg4 harg4 arg5 harg5 arg6 harg6 arg7 harg7 hc0 hc1 x0 x1 x2 = step x0 x1 x2 k0_pay3 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x64) hz2, View.readCov_unit_zero (S := S1024x64) _ hz2]
  simp only [View.readAt_eq_ld, harg3.read_unread, harg4.read_unread, harg5.read_unread, harg7.read_unread,
    View.ld_unit_zero (S := S1x1024x3) hz3, View.ld_unit_zero (S := S1x3x1024) hz3, View.ld_unit_zero (S := S1x1024x64) hz3,
    View.ld_unit_zero (S := S1024x64) hz2]

/-- Second and third input tiles: the tile's product is added to the sum the tile before left. -/
theorem scratch_B (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S1024x64 .f32) (harg7 : arg7.IsWhole) (hc0 : ¬cond0_0 i) (hc1 : ¬cond0_1 i)
    (x0 : Vec F S1x1024x3 .f32) (x1 : Vec F S1x3x1024 .f32) (x2 : Vec F S1x1024x64 .f32) (xs0 : Vec F S1024x64 .f32) :
    sout0_B_0 c i arg3 harg3 arg4 harg4 arg5 harg5 arg6 harg6 arg7 harg7 hc0 hc1 x0 x1 x2 xs0 = step x0 x1 x2 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero hz2]
  simp only [View.readAt_eq_ld, harg3.read_unread, harg4.read_unread, harg5.read_unread, harg7.read_unread,
    View.ld_unit_zero (S := S1x1024x3) hz3, View.ld_unit_zero (S := S1x3x1024) hz3, View.ld_unit_zero (S := S1x1024x64) hz3,
    View.ld_unit_zero (S := S1024x64) hz2]

/-- Last input tile: the scratch is updated as at the middle tiles. -/
theorem scratch_C (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S1024x64 .f32) (harg7 : arg7.IsWhole) (hc0 : ¬cond0_0 i) (hc1 : cond0_1 i)
    (x0 : Vec F S1x1024x3 .f32) (x1 : Vec F S1x3x1024 .f32) (x2 : Vec F S1x1024x64 .f32) (xs0 : Vec F S1024x64 .f32) :
    sout0_C_0 c i arg3 harg3 arg4 harg4 arg5 harg5 arg6 harg6 arg7 harg7 hc0 hc1 x0 x1 x2 xs0 = step x0 x1 x2 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero hz2]
  simp only [View.readAt_eq_ld, harg3.read_unread, harg4.read_unread, harg5.read_unread, harg7.read_unread,
    View.ld_unit_zero (S := S1x1024x3) hz3, View.ld_unit_zero (S := S1x3x1024) hz3, View.ld_unit_zero (S := S1x1024x64) hz3,
    View.ld_unit_zero (S := S1024x64) hz2]

/-- Last input tile: the output block is the updated sum, with a leading unit axis. -/
theorem out_C (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S1024x64 .f32) (harg7 : arg7.IsWhole) (hc0 : ¬cond0_0 i) (hc1 : cond0_1 i)
    (x0 : Vec F S1x1024x3 .f32) (x1 : Vec F S1x3x1024 .f32) (x2 : Vec F S1x1024x64 .f32) (xs0 : Vec F S1024x64 .f32) :
    out0_C_3 c i arg3 harg3 arg4 harg4 arg5 harg5 arg6 harg6 arg7 harg7 hc0 hc1 x0 x1 x2 xs0 = k0_pay2 (step x0 x1 x2 xs0) := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero hz3, View.readCov_unit_zero (S := S1024x64) _ hz2]
  simp only [View.readAt_eq_ld, harg3.read_unread, harg4.read_unread, harg5.read_unread, harg7.read_unread,
    View.ld_unit_zero (S := S1x1024x3) hz3, View.ld_unit_zero (S := S1x3x1024) hz3, View.ld_unit_zero (S := S1x1024x64) hz3,
    View.ld_unit_zero (S := S1024x64) hz2]

end Cert.KernelIdeal.Pieces

end
-- ==== Proof.TileValue.lean ====
/-
  One tile's step at an index, on the extended reals.

  At row r of the output tile and channel ch the body adds to the carried sum
      ∑_k  w(y_r, x_k) · weights[k, ch],      k over the 1024 input points of the tile,
  where y_r is row r of the [1024, 3] output-position block, x_k is column k of the [3, 1024] input-position block
  (points along the fast axis) and w is the Gaussian weight with the squared distance accumulated coordinate by
  coordinate.  Each coordinate's difference is a column of the first block spread over the lanes minus a row of the
  second spread over the sublanes; the two casts to a narrower float format are the identity here; the matrix
  product into a zero accumulator is the sum over the shared axis.
-/
import proofs.«163945_j72971494359165_2_alg».proof.Proof.GaussSpec
import proofs.«163945_j72971494359165_2_alg».proof.Proof.LibRowOps
import proofs.«163945_j72971494359165_2_alg».proof.Proof.TilePieces
import Idealize.ShloMosaic.Lib.ValueLayout

noncomputable section

open Idealize.ShloMosaic Idealize.ShloMosaic.ValueIdx

namespace Cert.KernelIdeal.TileValue

open Cert.KernelIdeal Cert.KernelIdeal.Gen Cert.KernelIdeal.Pieces Cert.GaussSpec

/-- The exponential of a vector, at an index. -/
theorem exp_apply {s : Shape} {φ : FTy} (a : FVec Ideal s φ) (i : s.Idx) : exp a i = Ideal.exp (a i) := rfl

/-- The tile's product contracts the left operand's second axis with the right operand's first, no batch axis. -/
theorem plain : Cert.RowOps.IsPlain (dot_S1024x1024_S1024x64_S1024x64_1_0_0_1_n_n) := ⟨rfl, rfl, rfl, rfl, rfl, rfl⟩

/-- The step at (r, ch): the carried sum plus the tile's weighted sum. -/
theorem step_apply (x0 : Vec Ideal S1x1024x3 .f32) (x1 : Vec Ideal S1x3x1024 .f32) (x2 : Vec Ideal S1x1024x64 .f32)
    (acc : Vec Ideal S1024x64 .f32) (r : Fin 1024) (ch : Fin 64) :
    step x0 x1 x2 acc (ix2 r ch) = acc (ix2 r ch)
      + ∑ k : Fin 1024, gramDirect (fun d => x0 (ix3 (0 : Fin 1) r d)) (fun d => x1 (ix3 (0 : Fin 1) d k)) * x2 (ix3 (0 : Fin 1) k ch) := by
  unfold step k0_pay1 k0_pay4
  rw [shapeCast_self]
  refine congrArg (acc (ix2 r ch) + ·) ?_
  refine (Cert.RowOps.matmul_zero_apply plain none _ _ r ch).trans ?_
  refine Finset.sum_congr rfl fun k _ => ?_
  refine congrArg₂ (· * ·) ?_ (shapeCast_1ab_ab_apply x2 _ k ch)
  unfold gramDirect
  simp only [truncf_apply, exp_apply, mulf_apply, addf_apply, subf_apply, broadcast_apply, Cert.RowOps.spread_apply,
    broadcastTo_1b_ab_apply, slice2_axis1_eq, slice2_axis0_eq, shapeCast_1ab_ab_apply, Ideal.ofBits_def]
  rfl

/-- The block stored at the first input tile is zero everywhere. -/
theorem zeroBlock_apply (i : S1024x64.Idx) : (k0_pay3 (F := Ideal)) i = 0 := by
  unfold k0_pay3
  rw [shapeCast_self]
  exact zeroW_eq

end Cert.KernelIdeal.TileValue

end
-- ==== Proof.TileAccum.lean ====
/-
  The running sum across the input tiles.

  Grid point t = 16·bc + 4·oi + ii works on batch bc, output tile oi and input tile ii.  The four points of one
  (bc, oi) are consecutive, the scratch is reset at the first of them (t % 4 = 0) and stepped at the other three,
  and the output block is written at the last (t % 4 = 3).  So what the scratch holds after point t is a fold over
  the points 4·(t / 4) … t of the body's step, and at a point that writes back the output block is that fold.
  Stated for any float instance; no arithmetic is opened here.
-/
import proofs.«163945_j72971494359165_2_alg».proof.Proof.TilePieces

noncomputable section

open Idealize.ShloMosaic Idealize.ShloMosaic.TcCoe Idealize.SL.Sem
open Idealize.ShloMosaic.Pipeline (Dat)

namespace Cert.KernelIdeal.Accum

open Cert.KernelIdeal Cert.KernelIdeal.Gen Cert.KernelIdeal.Pieces

variable {F : FTy → Type} [FloatOps F]
variable (m : (ℓ : Loc nD τ sig) → Buf (Elt F) ℓ)

/-- The three input blocks of point `n`. -/
abbrev blkY (c : Dev nD) (n : Nat) (h : n < cfg0.N) : Vec F S1x1024x3 .f32 := iblk m c 0 ⟨n, h⟩
abbrev blkX (c : Dev nD) (n : Nat) (h : n < cfg0.N) : Vec F S1x3x1024 .f32 := iblk m c 1 ⟨n, h⟩
abbrev blkW (c : Dev nD) (n : Nat) (h : n < cfg0.N) : Vec F S1x1024x64 .f32 := iblk m c 2 ⟨n, h⟩

/-- The sum after the first input tile of a run. -/
def resetAt (c : Dev nD) (n : Nat) (h : n < cfg0.N) : Vec F S1024x64 .f32 :=
  step (blkY m c n h) (blkX m c n h) (blkW m c n h) k0_pay3

/-- The sum after a later input tile, from the sum before it. -/
def stepAt (c : Dev nD) (n : Nat) (h : n < cfg0.N) (acc : Vec F S1024x64 .f32) : Vec F S1024x64 .f32 :=
  step (blkY m c n h) (blkX m c n h) (blkW m c n h) acc

theorem scr_reset (c : Dev nD) (n : Nat) (h : n < cfg0.N) (h0 : n % 4 = 0) :
    (outsAt0 m c n h).2 = resetAt m c n h := by
  have h1 : ¬n % 4 = 3 := by omega
  rw [outsAt0_A m c ⟨n, h⟩ h0 h1]
  dsimp only
  exact scratch_A (F := F) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) _ _ (iblk m c 0 ⟨n, h⟩) (iblk m c 1 ⟨n, h⟩) (iblk m c 2 ⟨n, h⟩)

theorem scr_step (c : Dev nD) (n : Nat) (h : n + 1 < cfg0.N) (h0 : ¬(n + 1) % 4 = 0) :
    (outsAt0 m c (n + 1) h).2 = stepAt m c (n + 1) h ((outsAt0 m c n (Nat.lt_of_succ_lt h)).2) := by
  by_cases h1 : (n + 1) % 4 = 3
  · rw [outsAt0_C m c ⟨n + 1, h⟩ h0 h1]
    dsimp only
    exact scratch_C (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) _ _ (iblk m c 0 ⟨n + 1, h⟩) (iblk m c 1 ⟨n + 1, h⟩) (iblk m c 2 ⟨n + 1, h⟩) (outsAt0 m c n (Nat.lt_of_succ_lt h)).2
  · rw [outsAt0_B m c ⟨n + 1, h⟩ h0 h1]
    dsimp only
    exact scratch_B (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) _ _ (iblk m c 0 ⟨n + 1, h⟩) (iblk m c 1 ⟨n + 1, h⟩) (iblk m c 2 ⟨n + 1, h⟩) (outsAt0 m c n (Nat.lt_of_succ_lt h)).2

/-- The scratch after point `t` is the fold over `t`'s run of four points. -/
theorem scr_fold (c : Dev nD) (t : Nat) (ht : t < cfg0.N) (h' : 4 * (t / 4) + t % 4 < cfg0.N) :
    (outsAt0 m c t ht).2 = Pipeline.accAt (resetAt m c) (stepAt m c) (4 * (t / 4)) (t % 4) h' :=
  Pipeline.eq_accAt_of_mod (fun n h => (outsAt0 m c n h).2) 4 (resetAt m c) (stepAt m c)
    (fun n h h0 => scr_reset m c n h h0) (fun n h h0 => scr_step m c n h h0) (by decide) t ht h'

/-- At a point that writes back, the output block is the sum, with a leading unit axis. -/
theorem out_flush (c : Dev nD) (t : Fin cfg0.N) (h3 : t.val % 4 = 3) :
    (outsAt0 m c t.val t.isLt).1 = k0_pay2 ((outsAt0 m c t.val t.isLt).2) := by
  have h0 : ¬t.val % 4 = 0 := by omega
  rw [outsAt0_C m c t h0 h3]
  dsimp only
  rw [out_C, scratch_C]

end Cert.KernelIdeal.Accum

end
-- ==== Proof.TileFold.lean ====
/-
  The scratch at a point that writes back, as a sum of four tile products.

  With the step read at an index (one tile adds its weighted sum to the carried value) the fold over the four points
  of a run is, at every index, zero plus the four tiles' weighted sums, in point order.
-/
import proofs.«163945_j72971494359165_2_alg».proof.Proof.TileValue
import proofs.«163945_j72971494359165_2_alg».proof.Proof.TileAccum

noncomputable section

open Idealize.ShloMosaic Idealize.ShloMosaic.TcCoe Idealize.SL.Sem Idealize.ShloMosaic.ValueIdx

namespace Cert.KernelIdeal.TileFold

open Cert.KernelIdeal Cert.KernelIdeal.Gen Cert.KernelIdeal.Pieces Cert.KernelIdeal.Accum Cert.KernelIdeal.TileValue Cert.GaussSpec

variable (m : (ℓ : Loc nD τ sig) → Buf (Elt Ideal) ℓ)

/-- The weighted sum the tile of point `n` contributes at an index of the [1024, 64] sum (zero past the grid, so
    that it is a function of every natural number). -/
def tileTerm (c : Dev nD) (n : Nat) : S1024x64.Idx → EReal := fun j =>
  if h : n < cfg0.N then
    ∑ k : Fin 1024, gramDirect (fun d => blkY m c n h (ix3 (0 : Fin 1) (j 0) d)) (fun d => blkX m c n h (ix3 (0 : Fin 1) d k))
      * blkW m c n h (ix3 (0 : Fin 1) k (j 1))
  else 0

theorem reset_apply (c : Dev nD) (n : Nat) (h : n < cfg0.N) (i : S1024x64.Idx) :
    resetAt m c n h i = (fun _ => (0 : EReal)) i + tileTerm m c n i := by
  obtain ⟨r, ch, rfl⟩ : ∃ (r : Fin 1024) (ch : Fin 64), i = ix2 r ch := ⟨i 0, i 1, eq_ix2 i⟩
  unfold resetAt tileTerm
  rw [step_apply, zeroBlock_apply, dif_pos h]

theorem stepAt_apply (c : Dev nD) (n : Nat) (h : n < cfg0.N) (acc : Vec Ideal S1024x64 .f32) (i : S1024x64.Idx) :
    stepAt m c n h acc i = acc i + tileTerm m c n i := by
  obtain ⟨r, ch, rfl⟩ : ∃ (r : Fin 1024) (ch : Fin 64), i = ix2 r ch := ⟨i 0, i 1, eq_ix2 i⟩
  unfold stepAt tileTerm
  rw [step_apply, dif_pos h]

/-- After the last point of a run the scratch holds the four tiles' sums added up. -/
theorem scratch_at_flush (c : Dev nD) (t : Fin cfg0.N) (h3 : t.val % 4 = 3) (i : S1024x64.Idx) :
    (outsAt0 m c t.val t.isLt).2 i = ∑ s ∈ Finset.range 4, tileTerm m c (4 * (t.val / 4) + s) i := by
  have ht : 4 * (t.val / 4) + 3 = t.val := by omega
  have hlt : 4 * (t.val / 4) + 3 < cfg0.N := by rw [ht]; exact t.isLt
  have same : ∀ (u : Nat) (hu : u < cfg0.N), u = t.val → (outsAt0 m c u hu).2 = (outsAt0 m c t.val t.isLt).2 :=
    fun u hu e => by subst e; rfl
  rw [← same _ hlt ht,
    Pipeline.eq_accAt (fun n h => (outsAt0 m c n h).2) 4 (resetAt m c) (stepAt m c)
      (fun n h h0 => scr_reset m c n h h0) (fun n h h0 => scr_step m c n h h0) (t.val / 4) 3 (by decide) hlt,
    Pipeline.accAt_add_apply (resetAt m c) (stepAt m c) (fun _ => (0 : EReal)) (tileTerm m c) (4 * (t.val / 4)) 3
      (fun h i => reset_apply m c _ h i) (fun n h acc i _ _ => stepAt_apply m c n h acc i) 3 (le_refl 3) hlt i,
    zero_add]

end Cert.KernelIdeal.TileFold

end
-- ==== Proof.Blocks.lean ====
/-
  From what each point writes back to the whole [8, 4096, 64] result.

  Point t = 16·bc + 4·oi + ii stages rows 1024·oi … of batch bc's output positions, columns 1024·ii … of its
  transposed input positions and rows 1024·ii … of its weights; the output block (bc, oi) is written back at the
  last input tile, ii = 3.  The four points of a run read the same output-position rows and consecutive quarters of
  the 4096 input points, so the four tile sums the scratch holds at the write-back add up to the full sum over the
  input points: the block written back is the block of the interpolation over the region's arrays.  The blocks
  (bc, oi) tile the result, so the result array ends at that interpolation everywhere.
-/
import proofs.«163945_j72971494359165_2_alg».proof.Proof.TileFold
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.Accum Cert.KernelIdeal.TileFold Cert.GaussSpec

variable (m : (ℓ : Loc nD τ sig) → Buf (Elt Ideal) ℓ)

/-- The block indices of the four windows at point t = 16·bc + 4·oi + ii, decided over the grid. -/
theorem idx_facts : ∀ t : Fin cfg0.N,
    win0_0.index t (0 : Fin 3) = t.val / 16 ∧ win0_0.index t (1 : Fin 3) = t.val / 4 % 4 ∧ win0_0.index t (2 : Fin 3) = 0
    ∧ win0_1.index t (0 : Fin 3) = t.val / 16 ∧ win0_1.index t (1 : Fin 3) = 0 ∧ win0_1.index t (2 : Fin 3) = t.val % 4
    ∧ win0_2.index t (0 : Fin 3) = t.val / 16 ∧ win0_2.index t (1 : Fin 3) = t.val % 4 ∧ win0_2.index t (2 : Fin 3) = 0
    ∧ win0_3.index t (0 : Fin 3) = t.val / 16 ∧ win0_3.index t (1 : Fin 3) = t.val / 4 % 4 ∧ win0_3.index t (2 : Fin 3) = 0 :=
  (by decide +kernel : ∀ t : Fin grid0.N, _)

/-- Row r of point n's output-position block is row 1024·oi + r of batch bc. -/
theorem blkY_apply (c : Dev nD) (n : Nat) (h : n < cfg0.N) (r : Fin 1024) (d : Fin 3) (p : Fin 8) (q : Fin 4096)
    (hp : p.val = n / 16) (hq : q.val = 1024 * (n / 4 % 4) + r.val) :
    blkY m c n h (ix3 (0 : Fin 1) r d) = V m c main_v3 (ix3 p q d) := by
  obtain ⟨e0, e1, e2, -⟩ := idx_facts ⟨n, h⟩
  dsimp only at e0 e1 e2
  unfold blkY iblk
  rw [View.read_apply]
  show V m c main_v3 (((cfg0.win 0).blk ⟨n, h⟩).view.emb (ix3 (0 : Fin 1) r d)) = V m c main_v3 (ix3 p q d)
  refine congrArg (V m c main_v3) (funext fun a => Fin.ext ?_)
  match a with
  | ⟨0, _⟩ => show win0_0.index ⟨n, h⟩ (0 : Fin 3) * 1 + 1 * 0 = p.val; rw [e0, hp]; omega
  | ⟨1, _⟩ => show win0_0.index ⟨n, h⟩ (1 : Fin 3) * 1024 + 1 * r.val = q.val; rw [e1, hq]; omega
  | ⟨2, _⟩ => show win0_0.index ⟨n, h⟩ (2 : Fin 3) * 3 + 1 * d.val = d.val; rw [e2]; omega

/-- Column k of point n's input-position block is input point 1024·ii + k of batch bc. -/
theorem blkX_apply (c : Dev nD) (n : Nat) (h : n < cfg0.N) (d : Fin 3) (k : Fin 1024) (p : Fin 8) (q : Fin 4096)
    (hp : p.val = n / 16) (hq : q.val = 1024 * (n % 4) + k.val) :
    blkX m c n h (ix3 (0 : Fin 1) d k) = V m c main_v1 (ix3 p d q) := by
  obtain ⟨-, -, -, e0, e1, e2, -⟩ := idx_facts ⟨n, h⟩
  dsimp only at e0 e1 e2
  unfold blkX iblk
  rw [View.read_apply]
  show V m c main_v1 (((cfg0.win 1).blk ⟨n, h⟩).view.emb (ix3 (0 : Fin 1) d k)) = V m c main_v1 (ix3 p d q)
  refine congrArg (V m c main_v1) (funext fun a => Fin.ext ?_)
  match a with
  | ⟨0, _⟩ => show win0_1.index ⟨n, h⟩ (0 : Fin 3) * 1 + 1 * 0 = p.val; rw [e0, hp]; omega
  | ⟨1, _⟩ => show win0_1.index ⟨n, h⟩ (1 : Fin 3) * 3 + 1 * d.val = d.val; rw [e1]; omega
  | ⟨2, _⟩ => show win0_1.index ⟨n, h⟩ (2 : Fin 3) * 1024 + 1 * k.val = q.val; rw [e2, hq]; omega

/-- Row k of point n's weight block is input point 1024·ii + k of batch bc. -/
theorem blkW_apply (c : Dev nD) (n : Nat) (h : n < cfg0.N) (k : Fin 1024) (ch : Fin 64) (p : Fin 8) (q : Fin 4096)
    (hp : p.val = n / 16) (hq : q.val = 1024 * (n % 4) + k.val) :
    blkW m c n h (ix3 (0 : Fin 1) k ch) = V m c main_v2 (ix3 p q ch) := by
  obtain ⟨-, -, -, -, -, -, e0, e1, e2, -⟩ := idx_facts ⟨n, h⟩
  dsimp only at e0 e1 e2
  unfold blkW iblk
  rw [View.read_apply]
  show V m c main_v2 (((cfg0.win 2).blk ⟨n, h⟩).view.emb (ix3 (0 : Fin 1) k ch)) = V m c main_v2 (ix3 p q ch)
  refine congrArg (V m c main_v2) (funext fun a => Fin.ext ?_)
  match a with
  | ⟨0, _⟩ => show win0_2.index ⟨n, h⟩ (0 : Fin 3) * 1 + 1 * 0 = p.val; rw [e0, hp]; omega
  | ⟨1, _⟩ => show win0_2.index ⟨n, h⟩ (1 : Fin 3) * 1024 + 1 * k.val = q.val; rw [e1, hq]; omega
  | ⟨2, _⟩ => show win0_2.index ⟨n, h⟩ (2 : Fin 3) * 64 + 1 * ch.val = ch.val; rw [e2]; omega

/-- The interpolation over the arrays the region stages. -/
abbrev target (c : Dev nD) : S8x4096x64.Idx → EReal :=
  interp3 gramDirect (V m c main_v3) (V m c main_v1) (V m c main_v2)

/-- At the write-back of block (bc, oi), row r and channel ch of the output block is the interpolation at
    (bc, 1024·oi + r, ch): the four tile sums are the four quarters of the sum over the input points. -/
theorem out_val (c : Dev nD) (t : Fin cfg0.N) (h3 : t.val % 4 = 3) (u : Fin 1) (r : Fin 1024) (ch : Fin 64)
    (p : Fin 8) (q : Fin 4096) (hp : p.val = t.val / 16) (hq : q.val = 1024 * (t.val / 4 % 4) + r.val) :
    k0_pay2 ((outsAt0 m c t.val t.isLt).2) (ix3 u r ch) = target m c (ix3 p q ch) := by
  have hN : cfg0.N = 128 := N_0
  have htl : t.val < 128 := lt_of_lt_of_eq t.isLt hN
  unfold k0_pay2
  rw [shapeCast_ab_1ab_apply, scratch_at_flush m c t h3]
  show ∑ s ∈ Finset.range 4, tileTerm m c (4 * (t.val / 4) + s) (ix2 r ch)
    = ∑ k : Fin 4096, gramDirect (fun d => V m c main_v3 (ix3 p q d)) (fun d => V m c main_v1 (ix3 p d k)) * V m c main_v2 (ix3 p k ch)
  rw [sum_four_tiles, Finset.sum_range]
  refine Finset.sum_congr rfl fun s _ => ?_
  have hsl : s.val < 4 := s.isLt
  have hs : 4 * (t.val / 4) + s.val < cfg0.N := lt_of_lt_of_eq (by omega : 4 * (t.val / 4) + s.val < 128) hN.symm
  unfold tileTerm
  rw [dif_pos hs]
  refine Finset.sum_congr rfl fun k _ => ?_
  have eY : ∀ d, blkY m c _ hs (ix3 (0 : Fin 1) r d) = V m c main_v3 (ix3 p q d) :=
    fun d => blkY_apply m c _ hs r d p q (by omega) (by omega)
  have eX : ∀ d, blkX m c _ hs (ix3 (0 : Fin 1) d k) = V m c main_v1 (ix3 p d (tile s k)) :=
    fun d => blkX_apply m c _ hs d k p (tile s k) (by omega) (by show 1024 * s.val + k.val = _; omega)
  have eW : blkW m c _ hs (ix3 (0 : Fin 1) k ch) = V m c main_v2 (ix3 p (tile s k) ch) :=
    blkW_apply m c _ hs k ch p (tile s k) (by omega) (by show 1024 * s.val + k.val = _; omega)
  exact congrArg₂ (· * ·) (congrArg₂ gramDirect (funext eY) (funext eX)) eW

/-- An index of the result array is in point t's block iff each coordinate is in the block's range on its axis. -/
theorem mem_blk (t : Fin cfg0.N) (i : S8x4096x64.Idx) :
    i ∈ ((cfg0.win 3).blk t).view.set ↔ ∀ a : Fin 3, win0_3.index t a * S1x1024x64.size a ≤ (i a).val
      ∧ (i a).val < win0_3.index t a * S1x1024x64.size a + S1x1024x64.size a := by
  show i ∈ ((View.whole main_v4).slice (win0_3.rect t)).set ↔ _
  rw [View.set_slice_whole, Rect.mem_set_unit]
  exact Iff.rfl

/-- What a point at the last input tile writes back is its block of the interpolation. -/
theorem flushed_eq (c : Dev nD) (t : Fin cfg0.N) (h3 : t.val % 4 = 3) :
    (dats m 0 c).flushed 3 t = ((cfg0.win 3).blk t).view.read (Elt Ideal) (target m c) := by
  show (cfg0.win 3).cut (grid0.coords t) ((dats m 0 c).after 3 t) = _
  rw [after0_3, out_flush m c t h3]
  have hN : cfg0.N = 128 := N_0
  have htl : t.val < 128 := lt_of_lt_of_eq t.isLt hN
  obtain ⟨-, -, -, -, -, -, -, -, -, e0, e1, e2⟩ := idx_facts t
  funext y
  rw [View.read_apply]
  have hy0 : (y 0).val < 1 := (y 0).isLt
  have hy1 : (y 1).val < 1024 := (y 1).isLt
  have ey : y = ix3 (y 0) (y 1) (y 2) := eq_ix3 y
  have ei : ((cfg0.win 3).blk t).view.emb y
      = ix3 (⟨t.val / 16, by omega⟩ : Fin 8) (⟨1024 * (t.val / 4 % 4) + (y 1).val, by omega⟩ : Fin 4096) (y 2) :=
    funext fun a => Fin.ext (by
      match a with
      | ⟨0, _⟩ => show win0_3.index t (0 : Fin 3) * 1 + 1 * (y 0).val = t.val / 16; rw [e0]; omega
      | ⟨1, _⟩ => show win0_3.index t (1 : Fin 3) * 1024 + 1 * (y 1).val = 1024 * (t.val / 4 % 4) + (y 1).val; rw [e1]; omega
      | ⟨2, _⟩ => show win0_3.index t (2 : Fin 3) * 64 + 1 * (y 2).val = (y 2).val; rw [e2]; omega)
  rw [ei]
  refine Eq.trans ?_ (out_val m c t h3 (y 0) (y 1) (y 2) _ _ rfl rfl)
  exact congrArg (k0_pay2 ((outsAt0 m c t.val t.isLt).2)) ey

/-- Every index of the result array is in the block some write-back covers. -/
theorem cover (i : S8x4096x64.Idx) :
    ∃ t : Fin cfg0.N, (cfg0.win 3).flush t = true ∧ i ∈ ((cfg0.win 3).blk t).view.set := by
  have h0 : (i 0).val < 8 := (i 0).isLt
  have h1 : (i 1).val < 4096 := (i 1).isLt
  have h2 : (i 2).val < 64 := (i 2).isLt
  have hN : cfg0.N = 128 := N_0
  have hlt : 16 * (i 0).val + 4 * ((i 1).val / 1024) + 3 < cfg0.N :=
    lt_of_lt_of_eq (by omega : 16 * (i 0).val + 4 * ((i 1).val / 1024) + 3 < 128) hN.symm
  refine ⟨⟨16 * (i 0).val + 4 * ((i 1).val / 1024) + 3, hlt⟩, (flush0_3 _).mpr (by show (16 * (i 0).val + 4 * ((i 1).val / 1024) + 3) % 4 = 3; omega), ?_⟩
  rw [mem_blk]
  obtain ⟨-, -, -, -, -, -, -, -, -, e0, e1, e2⟩ := idx_facts ⟨16 * (i 0).val + 4 * ((i 1).val / 1024) + 3, hlt⟩
  dsimp only at e0 e1 e2
  intro a
  match a with
  | ⟨0, _⟩ =>
    show win0_3.index _ (0 : Fin 3) * 1 ≤ (i 0).val ∧ (i 0).val < win0_3.index _ (0 : Fin 3) * 1 + 1
    rw [e0]; omega
  | ⟨1, _⟩ =>
    show win0_3.index _ (1 : Fin 3) * 1024 ≤ (i 1).val ∧ (i 1).val < win0_3.index _ (1 : Fin 3) * 1024 + 1024
    rw [e1]; omega
  | ⟨2, _⟩ =>
    show win0_3.index _ (2 : Fin 3) * 64 ≤ (i 2).val ∧ (i 2).val < win0_3.index _ (2 : Fin 3) * 64 + 64
    rw [e2]; omega

/-- The result array after the run is the interpolation over the region's arrays. -/
theorem final (c : Dev nD) : (dats m 0 c).arrAt 3 cfg0.N = target m c :=
  (dats m 0 c).arrAt_eq_of_cover 3 (target m c) (fun t hf => flushed_eq m c t ((flush0_3 t).mp hf)) (cover)

end Cert.KernelIdeal.Blocks

end
-- ==== Proof.HostPrefix.lean ====
/-
  What the region finds in the three arrays it stages.

  Before the call the host merges the two batch axes of each argument ([2, 4, n, e] → [8, n, e]) and, for the input
  positions, swaps the last two axes so that the 4096 points lie along the fast axis.  So the region's arrays are:
  the output positions merged, the input positions merged and transposed, the weights merged.
-/
import proofs.«163945_j72971494359165_2_alg».proof.Proof.TileAccum
import Idealize.ShloMosaic.Lib.StableHlo.Run

noncomputable section

open Idealize.ShloMosaic Idealize.ShloMosaic.TcCoe Idealize.SL.Sem

namespace Cert.KernelIdeal.HostPrefix

open Cert.KernelIdeal Cert.KernelIdeal.Gen

variable {F : FTy → Type} [FloatOps F]
variable (m : (ℓ : Loc nD τ sig) → Buf (Elt F) ℓ)

/-- The output positions, batch axes merged. -/
theorem V_ypos (c : Dev nD) : (V m c main_v3 : S8x4096x3.Idx → Elt F .f32)
    = shapeCast S8x4096x3 (m ((c : Thread nD τ).loc main_arg2)) shapeCasts_S2x4x4096x3_S8x4096x3 := by
  show StableHlo.after hostOps0 (fun b => m (c, b)) (Proc.devRef .tc main_v3) = _
  after_results
  rfl

/-- The input positions, batch axes merged, then points and coordinates swapped. -/
theorem V_xposT (c : Dev nD) : (V m c main_v1 : S8x3x4096.Idx → Elt F .f32)
    = transpose S8x3x4096 [0, 2, 1] (shapeCast S8x4096x3 (m ((c : Thread nD τ).loc main_arg0)) shapeCasts_S2x4x4096x3_S8x4096x3)
        transposes_S8x4096x3_S8x3x4096_0_2_1 := by
  show StableHlo.after hostOps0 (fun b => m (c, b)) (Proc.devRef .tc main_v1) = _
  after_results
  rfl

/-- The weights, batch axes merged. -/
theorem V_wgt (c : Dev nD) : (V m c main_v2 : S8x4096x64.Idx → Elt F .f32)
    = shapeCast S8x4096x64 (m ((c : Thread nD τ).loc main_arg1)) shapeCasts_S2x4x4096x64_S8x4096x64 := by
  show StableHlo.after hostOps0 (fun b => m (c, b)) (Proc.devRef .tc main_v2) = _
  after_results
  rfl

end Cert.KernelIdeal.HostPrefix

end
-- ==== Proof.KernelRun.lean ====
/-
  The idealized kernel's run, read.

  After the region the host splits the merged batch axis of the [8, 4096, 64] result back into [2, 4, 4096, 64].
  The region's arrays are the merged (and, for the input positions, transposed) arguments, and the interpolation
  over the merged arrays, split back, is the interpolation over the arguments themselves.  So every weakly fair
  execution ends with the result array at the interpolation of the argument arrays, with the squared distance
  accumulated coordinate by coordinate, and with the arguments unchanged.
-/
import proofs.«163945_j72971494359165_2_alg».proof.Proof.Blocks
import proofs.«163945_j72971494359165_2_alg».proof.Proof.HostPrefix
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.KernelRun

open Cert.KernelIdeal Cert.KernelIdeal.Gen Cert.KernelIdeal.Blocks Cert.KernelIdeal.HostPrefix Cert.GaussSpec

variable (m : (ℓ : Loc nD τ sig) → Buf (Elt Ideal) ℓ) (ρ : Dev nD → PrngReg)

/-- The program's result buffer after the host's last reshape. -/
theorem result_eq (c : Dev nD) :
    Pipeline.afterTail₀ cfgs (dats m) 0 (V0 m) [hostOps1] c main_v5
      = Cert.GaussSpec.interp gramDirect (m ((c : Thread nD τ).loc main_arg0)) (m ((c : Thread nD τ).loc main_arg1))
          (m ((c : Thread nD τ).loc main_arg2)) := by
  unfold Pipeline.afterTail₀
  show StableHlo.after hostOps1 _ (Proc.devRef .tc main_v5) = _
  after_results
  have hw : Pipeline.withArrays (cfgs 0).spec c (V0 m c) (fun w => (dats m 0 c).arrAt w (cfgs 0).N) (Proc.devRef .tc main_v4)
      = target m c :=
    (Pipeline.withArrays_arr spec0 launch0.win.arr_inj c _ _ 3).trans (final m c)
  rw [hw]
  show shapeCast S2x4x4096x64 (target m c) shapeCasts_S8x4096x64_S2x4x4096x64 = _
  unfold target
  rw [V_ypos m c, V_xposT m c, V_wgt m c]
  exact interp3_merge gramDirect _ _ _ _ _ _ _

/-- The run: the result at the interpolation of the arguments, the arguments unchanged. -/
theorem run : θ_run defs (onTc (τ := τ) (main (F := Ideal))) ⟨m, fun _ => 0, ρ⟩ fun r => ∀ c : Dev nD,
      r.2.mem ((c.tc : Thread nD τ).loc main_v5)
        = Cert.GaussSpec.interp gramDirect (m ((c : Thread nD τ).loc main_arg0)) (m ((c : Thread nD τ).loc main_arg1))
            (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v5 (Pipeline.mem_restRefs_of main_v5 (by decide) (by decide))).trans (result_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c)⟩)
    (run_main m ρ)

end Cert.KernelIdeal.KernelRun

end
-- ==== Proof.RefValue.lean ====
/-
  The reference's result is the interpolation with the expanded squared distance.

  Read one operation at a time: the last contraction sums over the 4096 input points k the product of the weight
  matrix entry (o, k) and the weights' row k; the weight matrix entry is the exponential of minus a half of
  ‖y_o‖² + ‖x_k‖² − 2·⟨y_o, x_k⟩, the squared norms as sums from zero over the three coordinates, the inner products
  by a batched contraction, the broadcasts only copying an entry along the missing axis.
-/
import proofs.«163945_j72971494359165_2_alg».proof.Proof.Gen.ReferenceIdeal.Read
import proofs.«163945_j72971494359165_2_alg».proof.Proof.GaussSpec

noncomputable section

open Idealize.ShloMosaic Idealize.ShloMosaic.ValueIdx

namespace Cert.ReferenceIdeal.RefValue

open Cert.ReferenceIdeal Cert.ReferenceIdeal.Read Cert.GaussSpec

section Indices
variable (b : Fin 2) (c : Fin 4) (o : Fin 4096) (ch : Fin 64) (k : Fin 4096) (d : Fin 3)

/-- Through the two broadcasts, the squared norm of the output point reads its own coordinates. -/
theorem idx_sqOut : idx_main_v1 (idx_main_v2 (idx_main_v7 (lidx_main_v17 (ix4 b c o ch) k))) d = ix4 b c o d :=
  funext fun a => Fin.ext (by match a with | ⟨0, _⟩ => rfl | ⟨1, _⟩ => rfl | ⟨2, _⟩ => rfl | ⟨3, _⟩ => rfl)
/-- Through the two broadcasts, the squared norm of the input point reads its own coordinates. -/
theorem idx_sqIn : idx_main_v4 (idx_main_v5 (idx_main_v8 (lidx_main_v17 (ix4 b c o ch) k))) d = ix4 b c k d :=
  funext fun a => Fin.ext (by match a with | ⟨0, _⟩ => rfl | ⟨1, _⟩ => rfl | ⟨2, _⟩ => rfl | ⟨3, _⟩ => rfl)
/-- The inner product's left operand is the output point, -/
theorem idx_crossOut : lidx_main_v6 (lidx_main_v17 (ix4 b c o ch) k) d = ix4 b c o d :=
  funext fun a => Fin.ext (by match a with | ⟨0, _⟩ => rfl | ⟨1, _⟩ => rfl | ⟨2, _⟩ => rfl | ⟨3, _⟩ => rfl)
/-- its right operand the input point. -/
theorem idx_crossIn : ridx_main_v6 (lidx_main_v17 (ix4 b c o ch) k) d = ix4 b c k d :=
  funext fun a => Fin.ext (by match a with | ⟨0, _⟩ => rfl | ⟨1, _⟩ => rfl | ⟨2, _⟩ => rfl | ⟨3, _⟩ => rfl)
/-- The last contraction's right operand is the weights' row of the input point. -/
theorem idx_wgt : ridx_main_v17 (ix4 b c o ch) k = ix4 b c k ch :=
  funext fun a => Fin.ext (by match a with | ⟨0, _⟩ => rfl | ⟨1, _⟩ => rfl | ⟨2, _⟩ => rfl | ⟨3, _⟩ => rfl)
end Indices

/-- The weight matrix entry (o, k) is the expanded Gaussian weight of output point o and input point k. -/
theorem weight_apply (x0 x2 : S2x4x4096x3.Idx → EReal) (b : Fin 2) (c : Fin 4) (o : Fin 4096) (ch : Fin 64) (k : Fin 4096) :
    val_main_v16 (F := Ideal) x0 x2 (lidx_main_v17 (ix4 b c o ch) k)
      = gramExpanded (fun d => x2 (ix4 b c o d)) (fun d => x0 (ix4 b c k d)) := by
  unfold gramExpanded
  simp only [val_main_v16_apply, val_main_v15_apply, val_main_v14_apply, val_main_v13_apply, val_main_v12_apply, val_main_v11_apply,
    val_main_v10_apply, val_main_v9_apply, val_main_v8_apply, val_main_v7_apply, val_main_v6_apply, val_main_v5_apply,
    val_main_v4_apply, val_main_v3_apply, val_main_v2_apply, val_main_v1_apply, val_main_v0_apply, val_main_cst_apply,
    val_main_cst_0_apply, val_main_cst_1_apply, val_main_cst_2_apply, idx_sqOut, idx_sqIn, idx_crossOut, idx_crossIn,
    Ideal.hostUnary_exp_def, Ideal.hostDivf_def, Ideal.hostNegf_def, Ideal.negf_def, Ideal.subf_def, Ideal.addf_def,
    Ideal.mulf_def, Ideal.ofBits_def]

/-- The reference's result, index by index. -/
theorem ref_eq (x0 : S2x4x4096x3.Idx → EReal) (x1 : S2x4x4096x64.Idx → EReal) (x2 : S2x4x4096x3.Idx → EReal) :
    val_main_v17 (F := Ideal) x0 x1 x2 = Cert.GaussSpec.interp gramExpanded x0 x1 x2 := by
  funext i
  obtain ⟨b, c, o, ch, rfl⟩ : ∃ (b : Fin 2) (c : Fin 4) (o : Fin 4096) (ch : Fin 64), i = ix4 b c o ch :=
    ⟨i 0, i 1, i 2, i 3, eq_ix4 i⟩
  rw [val_main_v17_apply]
  unfold Cert.GaussSpec.interp
  refine Finset.sum_congr rfl fun k _ => ?_
  exact congrArg₂ (· * ·) (weight_apply x0 x2 b c o ch k) (congrArg x1 (idx_wgt b c o ch k))

end Cert.ReferenceIdeal.RefValue

end
-- ==== Proof.FiniteInputs.lean ====
/-
  Finite inputs are real numbers.

  The precondition says of each argument array that every entry's absolute value is below +∞, the three conjuncts
  joined by `and`.  On the extended reals an entry with |x| < ⊤ is neither ⊤ nor ⊥: it is a real number.  Only the
  two position arrays are needed (the law between the two spellings of the squared distance is about them).
-/
import proofs.«163945_j72971494359165_2_alg».proof.Pre_finite_inputs
import proofs.«163945_j72971494359165_2_alg».proof.Proof.GaussSpec
import Idealize.ShloMosaic.Lib.ReduceAll

noncomputable section

open Idealize.ShloMosaic

namespace Cert.FiniteInputs

open Cert.Pre_finite_inputs Cert.GaussSpec

instance : Subsingleton S_.Idx := ⟨fun a b => funext fun d => d.elim0⟩

/-- An entry that compares below the +∞ word in absolute value is a real number. -/
theorem elt_real (x : EReal) (h : Ideal.cmp .olt (max x (-x)) infW = 1#1) : ∃ r : ℝ, x = (r : EReal) := by
  apply exists_real_of_abs_lt_top
  rw [infW_eq] at h
  by_contra hn
  have e : Ideal.cmp .olt (max x (-x)) ⊤ = 0#1 := by simp [Ideal.cmp, hn]
  rw [e] at h
  exact absurd h (by decide)

/-- Under the precondition every input position and every output position is a real number. -/
theorem real_of_pre [Facts] (x0 : FVec Ideal S2x4x4096x3 .f32) (x1 : FVec Ideal S2x4x4096x64 .f32) (x2 : FVec Ideal S2x4x4096x3 .f32)
    (h : fn (F := Ideal) x0 x1 x2 = fun _ => 1#1) :
    (∀ i, ∃ r : ℝ, x0 i = (r : EReal)) ∧ (∀ i, ∃ r : ℝ, x2 i = (r : EReal)) := by
  have h' := congrFun h ValueIdx.ix0
  dsimp only [fn] at h'
  obtain ⟨h8, h12⟩ := IntOp.andi_eq_one.1 h'
  obtain ⟨h3, h7⟩ := IntOp.andi_eq_one.1 h8
  exact ⟨fun i => elt_real _ (Host.reduce_andi_all _ _ _ _ _ h3 i), fun i => elt_real _ (Host.reduce_andi_all _ _ _ _ _ h12 i)⟩

end Cert.FiniteInputs

end
-- ==== Proof.lean ====
/-
  Gaussian-kernel interpolation: a tiled kernel against its dense reference, on the extended reals.

  Both programs compute, for each batch (b, c), output point o and channel ch,
      ∑_k exp(−‖y_o − x_k‖² / 2) · weights[b, c, k, ch]        (k over the 4096 input points).
  The kernel walks a grid (batch, output tile, input tile): per point it forms the 1024 × 1024 tile of weights from
  the squared distance accumulated coordinate by coordinate, multiplies it into the weights' tile, and adds the
  product into a running sum that is reset at the first input tile and written out at the last; the host merges the
  batch axes before the call and splits them after it.  The reference expands the squared distance into
  ‖y‖² + ‖x‖² − 2⟨y, x⟩ and contracts over all 4096 input points at once.

  The kernel's side: what each point leaves (TilePieces), the fold over a run of four points (TileAccum), one step
  at an index (TileValue), the fold at an index (TileFold), the blocks written back and the whole result (Blocks),
  the host's reshapes around the region (HostPrefix, KernelRun).  The reference's side: its generated run, read at
  an index (RefValue).  The two sums agree term by term once the two spellings of the squared distance agree, which
  holds for real positions (GaussSpec); the precondition makes the positions real (FiniteInputs).  Regrouping the
  sum over the input points into four tiles needs no finiteness: addition on the extended reals is commutative and
  associative.
-/
import proofs.«163945_j72971494359165_2_alg».proof.Defs
import proofs.«163945_j72971494359165_2_alg».proof.Proof.Gen.Kernel
import proofs.«163945_j72971494359165_2_alg».proof.Proof.Gen.Kernel.Skeleton
import proofs.«163945_j72971494359165_2_alg».proof.Proof.Gen.Kernel.Launch
import proofs.«163945_j72971494359165_2_alg».proof.Proof.Gen.Kernel.Points
import proofs.«163945_j72971494359165_2_alg».proof.Proof.Gen.Kernel.Frame
import proofs.«163945_j72971494359165_2_alg».proof.Proof.Gen.KernelIdeal
import proofs.«163945_j72971494359165_2_alg».proof.Proof.Gen.KernelIdeal.Skeleton
import proofs.«163945_j72971494359165_2_alg».proof.Proof.Gen.KernelIdeal.Launch
import proofs.«163945_j72971494359165_2_alg».proof.Proof.Gen.KernelIdeal.Points
import proofs.«163945_j72971494359165_2_alg».proof.Proof.Gen.KernelIdeal.Frame
import proofs.«163945_j72971494359165_2_alg».proof.Proof.Gen.ReferenceIdeal
import proofs.«163945_j72971494359165_2_alg».proof.Proof.Gen.ReferenceIdeal.Run
import proofs.«163945_j72971494359165_2_alg».proof.Proof.Gen.ReferenceIdeal.Read
import proofs.«163945_j72971494359165_2_alg».proof.Proof.Gen.Pre_finite_inputs
import proofs.«163945_j72971494359165_2_alg».proof.Proof.KernelRun
import proofs.«163945_j72971494359165_2_alg».proof.Proof.RefValue
import proofs.«163945_j72971494359165_2_alg».proof.Proof.FiniteInputs
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- On the extended reals, with finite inputs, the kernel's result and the reference's are the same array: the
    kernel ends at the interpolation with the squared distance accumulated directly, the reference at the
    interpolation with it expanded, and for real positions these are one function. -/
theorem algebraic : Cert.algebraic_KernelIdeal_ReferenceIdeal := by
  intro m ρ m' ρ' hpre hagree
  refine ⟨fun c => Cert.GaussSpec.interp Cert.GaussSpec.gramDirect
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  refine ((Cert.ReferenceIdeal.Read.val_main_v17_eq (F := Ideal) _ _ _).trans
    (Cert.ReferenceIdeal.RefValue.ref_eq _ _ _)).trans ?_
  rw [(hagree c).1, (hagree c).2.1, (hagree c).2.2]
  obtain ⟨h0, h2⟩ := Cert.FiniteInputs.real_of_pre _ _ _ (hpre c)
  exact (Cert.GaussSpec.interp_eq_of_real _ _ _ h0 h2).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
